-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_

variable [Facts]

def fn_part1 {F : FTy → Type} [FloatOps F] (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  main_v18

def fn {F : FTy → Type} [FloatOps F] (main_arg0 : FVec F S8192x2048 .f32) (main_arg1 : FVec F S2048x1024 .f32) (main_arg2 : FVec F S1024 .f32) (main_arg3 : FVec F S1000x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_v13 main_v16
-- ==== Kernel.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S_ : Shape := ⟨0, ![]⟩
abbrev S1024x1024 : Shape := ⟨2, ![1024, 1024]⟩
abbrev S1x1024 : Shape := ⟨2, ![1, 1024]⟩
abbrev S8192x1000 : Shape := ⟨2, ![8192, 1000]⟩
abbrev S512x2048 : Shape := ⟨2, ![512, 2048]⟩
abbrev S512x1000 : Shape := ⟨2, ![512, 1000]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1000x1024, .f32⟩
  | .hbm, ⟨4, _⟩ => ⟨S2048x1024, .bf16⟩
  | .hbm, ⟨5, _⟩ => ⟨S_, .i32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S8192x1000, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S512x1000, .f32⟩
  | .local _ .vmem, ⟨7, _⟩ => ⟨S512x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  pads_S1000x1024_S1024x1024_0240_000 : S1000x1024.Pads (![0, 0] : Fin 2 → Nat) ![24, 0] ![0, 0] S1024x1024
  h_S_ : 0 < S_.numel
  transposes_S1024x1024_S1024x1024_1_0 : S1024x1024.Transposes [1, 0] S1024x1024
  bcast_S1024_S1x1024_1 : S1024.BroadcastsInDim S1x1024 (![1] : Fin 1 → Fin S1x1024.rank)
  reducesTo_S1024x1024_S1024_d1 : S1024x1024.ReducesTo [1] S1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S512x1_S512x1024 : S512x1.Broadcasts S512x1024
  slices_S512x1024_o0_0_S512x1000 : S512x1024.Slices ![0, 0] S512x1000
  inb_S512x1000_S512x1000_0_0 : ∀ a, (![0, 0] : Fin 2 → Nat) a + S512x1000.size a ≤ S512x1000.size a
  h_S512x1000 : 0 < S512x1000.numel
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S8192x1000.size a
  hwx0_5 : ∀ i : grid0.Coords, EltTy.bits .f32 = 32 ∨ (Rect.block (s := S8192x1000) S512x1000.size (cc0_transform_5 i) (hinb0_5 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1000x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1000x1024, .f32⟩
  | .hbm, ⟨13, _⟩ => ⟨S_, .f32⟩
  | .hbm, ⟨14, _⟩ => ⟨S1000, .f32⟩
  | .hbm, ⟨15, _⟩ => ⟨S1x1000, .f32⟩
  | .hbm, ⟨16, _⟩ => ⟨S8192x1000, .f32⟩
  | .hbm, ⟨17, _⟩ => ⟨S8192x1000, .f32⟩
  | .hbm, ⟨18, _⟩ => ⟨S8192x1000, .f32⟩
  | .hbm, ⟨19, _⟩ => ⟨S8192x1000, .f32⟩
  | .hbm, ⟨20, _⟩ => ⟨S_, .f32⟩
  | .hbm, ⟨21, _⟩ => ⟨S8192x1000, .f32⟩
  | .hbm, ⟨22, _⟩ => ⟨S8192x1000, .f32⟩
  | .hbm, ⟨23, _⟩ => ⟨S8192x1000, .f32⟩
  | .hbm, ⟨24, _⟩ => ⟨S_, .f32⟩
  | .hbm, ⟨25, _⟩ => ⟨S8192x1000, .f32⟩
  | .hbm, ⟨26, _⟩ => ⟨S8192x1000, .f32⟩
  | .hbm, ⟨27, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S1000x1024_S1000_d1 : S1000x1024.ReducesTo [1] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x2048_S2048x1024_S8192x1024_1_0_0_1_n_n_wf : DotDims.WF S8192x2048 S2048x1024 S8192x1024 [1] [0] [0] [1] [] []
  dot_S8192x1024_S1000x1024_S8192x1000_1_1_0_0_n_n_wf : DotDims.WF S8192x1024 S1000x1024 S8192x1000 [1] [1] [0] [0] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1000x1024_S8192x1000_1_1_0_0_n_n : DotDims S8192x1024 S1000x1024 S8192x1000 where
  lhsContracting := [1]
  rhsContracting := [1]
  lhsNonContracting := [0]
  rhsNonContracting := [0]
  lhsBatch := []
  rhsBatch := []
  wf := dot_S8192x1024_S1000x1024_S8192x1000_1_1_0_0_n_n_wf

class Facts : Prop extends Facts₀ where

variable [Facts]
-- ==== Proof.Spec.lean ====
/-
  The quantity both programs compute, entry by entry, over the extended reals.

  A batch row `r` is encoded as `z_r(k) = Σ_j x(r, j) · W(j, k) + b(k)`. Against prototype `q` (a row `P(q, ·)` of 1024
  numbers) the unscaled squared distance is taken by its expansion,
      `d(r, q) = (Σ_k z_r(k)² + Σ_k P(q, k)²) − 2 · Σ_k z_r(k) · P(q, k)`,
  and the result is the negated mean over the 1024 coordinates, `−(d(r, q) / 1024)`.

  One side divides by `1024`; the other multiplies by the float `2⁻¹⁰` and negates by subtracting from zero. On the
  extended reals division by a nonzero real IS multiplication by its reciprocal, at the infinities too, and
  `0 − y = −y` for every `y`; so the two spellings agree with no finiteness assumption (`scaled_neg`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Row `r` of the encoder's output at coordinate `k`: `Σ_j x(r, j) · W(j, k) + b(k)`. -/
def feat (x : (⟨2, ![8192, 2048]⟩ : Shape).Idx → EReal) (W : (⟨2, ![2048, 1024]⟩ : Shape).Idx → EReal)
    (b : (⟨1, ![1024]⟩ : Shape).Idx → EReal) (r : Fin 8192) (k : Fin 1024) : EReal :=
  (∑ j : Fin 2048, x (ix2 r j) * W (ix2 j k)) + b (ix1 k)

/-- The expanded squared distance between a feature row `z` and a prototype row `pr`:
    `(Σ z² + Σ pr²) − 2 · Σ z · pr`, the `2` as the float both programs spell. -/
def dist (z pr : Fin 1024 → EReal) : EReal :=
  ((∑ k : Fin 1024, z k * z k) + (∑ k : Fin 1024, pr k * pr k))
    - Ideal.ofBits .f32 0x40000000#32 * ∑ k : Fin 1024, z k * pr k

/-- The result array: at `(r, q)` the negated mean squared difference of row `r`'s features and prototype `q`. -/
def negMse (x : (⟨2, ![8192, 2048]⟩ : Shape).Idx → EReal) (W : (⟨2, ![2048, 1024]⟩ : Shape).Idx → EReal)
    (b : (⟨1, ![1024]⟩ : Shape).Idx → EReal) (P : (⟨2, ![1000, 1024]⟩ : Shape).Idx → EReal) :
    (⟨2, ![8192, 1000]⟩ : Shape).Idx → EReal :=
  fun i => -(Ideal.div (dist (feat x W b (i 0)) (fun k => P (ix2 (i 1) k))) (Ideal.ofBits .f32 0x44800000#32))

theorem negMse_apply (x : (⟨2, ![8192, 2048]⟩ : Shape).Idx → EReal) (W : (⟨2, ![2048, 1024]⟩ : Shape).Idx → EReal)
    (b : (⟨1, ![1024]⟩ : Shape).Idx → EReal) (P : (⟨2, ![1000, 1024]⟩ : Shape).Idx → EReal) (r : Fin 8192) (q : Fin 1000) :
    negMse x W b P (ix2 r q)
      = -(Ideal.div (dist (feat x W b r) (fun k => P (ix2 q k))) (Ideal.ofBits .f32 0x44800000#32)) := rfl

/-- The float `1024.0` denotes the real `1024`. -/
theorem ofBits_1024 : Ideal.ofBits .f32 0x44800000#32 = ((1024 : ℝ) : EReal) := by
  simp [Ideal.ofBits, Ideal.ieee, -EReal.coe_mul]; norm_num

/-- The float `9.765625e-4` denotes exactly `1/1024`: it is the power of two `2⁻¹⁰`. -/
theorem ofBits_inv_1024 : Ideal.ofBits .f32 0x3A800000#32 = ((1 / 1024 : ℝ) : EReal) := by
  simp [Ideal.ofBits, Ideal.ieee, -EReal.coe_mul]; norm_num

/-- THE LAW THAT JOINS THE TWO SIDES: subtracting from the float zero the product with `2⁻¹⁰` is negating the
    quotient by `1024`, for every extended real `y`. -/
theorem scaled_neg (y : EReal) :
    Ideal.ofBits .f32 0x00000000#32 - y * Ideal.ofBits .f32 0x3A800000#32
      = -(Ideal.div y (Ideal.ofBits .f32 0x44800000#32)) := by
  rw [Ideal.ofBits_zero_f32, ofBits_inv_1024, ofBits_1024, Ideal.div_coe (by norm_num : (1024 : ℝ) ≠ 0), zero_sub]

end Cert.Spec

end
-- ==== Proof.HostSide.lean ====
/-
  What the kernel's four resident operands hold when the grid starts, entry by entry.

  Before the grid runs, the host prepares four arrays from the arguments `W` (2048 × 1024), `b` (1024) and `P` (1000 × 1024):
  * `W` itself (only its float format changes, which is the identity on the extended reals);
  * `b` as a single row, `(0, k) ↦ b(k)`;
  * the prototypes padded with 24 further rows and transposed: `(k, q) ↦ P(q, k)` for every real prototype `q < 1000`;
  * the padded prototypes' squared row norms as a single row: `(0, q) ↦ 0 + Σ_k P(q, k)²` for `q < 1000`.
  The 24 padding rows (`q ≥ 1000`) are never read below: the kernel stores only the first 1000 columns of what it computes.
-/
import proofs.«156472_j48490180772265_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- A column index below 1000, as a column of the padded width 1024. -/
abbrev widen (q : Fin 1000) : Fin 1024 := ⟨q.val, Nat.lt_of_lt_of_le q.isLt (by decide)⟩

/-! ## The padded prototypes -/

/-- The prototypes with 24 further rows appended (each entry of those rows the padding value). -/
def padded (P : S1000x1024.Idx → EReal) : S1024x1024.Idx → EReal :=
  pad S1024x1024 ![0, 0] ![24, 0] ![0, 0] P (sitofp (F := Ideal) .f32 (constantI S_ 32 0#32))
    pads_S1000x1024_S1024x1024_0240_000 h_S_

/-- Row `q < 1000` of the padded prototypes is row `q` of the prototypes. -/
theorem padded_apply (P : S1000x1024.Idx → EReal) (q : Fin 1000) (k : Fin 1024) :
    padded P (ix2 (widen q) k) = P (ix2 q k) := by
  unfold padded
  refine pad_apply_of_inside _ _ _ P _ _ _ (ix2 (widen q) k) (ix2 q k) fun a => ?_
  match a with
  | ⟨0, _⟩ => show q.val = 0 + q.val * (0 + 1); omega
  | ⟨1, _⟩ => show k.val = 0 + k.val * (0 + 1); omega

variable (m : (ℓ : Loc nD τ sig) → Buf (Elt Ideal) ℓ)

/-! ## The argument arrays as launched, as functions on their index sets -/

abbrev aX (c : Dev nD) : S8192x2048.Idx → EReal := m ((c : Thread nD τ).loc main_arg0)
abbrev aW (c : Dev nD) : S2048x1024.Idx → EReal := m ((c : Thread nD τ).loc main_arg1)
abbrev aB (c : Dev nD) : S1024.Idx → EReal := m ((c : Thread nD τ).loc main_arg2)
abbrev aP (c : Dev nD) : S1000x1024.Idx → EReal := m ((c : Thread nD τ).loc main_arg3)

/-! ## The four arrays as terms of the arguments -/

theorem V_v0 (c : Dev nD) :
    @Eq (S2048x1024.Idx → EReal) (V m c main_v0) (truncf (F := Ideal) .bf16 (aW m c) bitsLt_bf16_f32) := by
  dsimp only [V]
  simp only [hostOps0, hostOps0_1, hostOps0_2, List.flatten_cons, List.flatten_nil, List.append_nil, List.cons_append,
    List.nil_append]
  after_results
  all_goals rfl

theorem V_v4 (c : Dev nD) :
    @Eq (S1x1024.Idx → EReal) (V m c main_v4) (broadcastInDim S1x1024 ![1] bcast_S1024_S1x1024_1 (aB m c)) := by
  dsimp only [V]
  simp only [hostOps0, hostOps0_1, hostOps0_2, List.flatten_cons, List.flatten_nil, List.append_nil, List.cons_append,
    List.nil_append]
  after_results
  all_goals rfl

theorem V_v3 (c : Dev nD) :
    @Eq (S1024x1024.Idx → EReal) (V m c main_v3)
      (truncf (F := Ideal) .bf16 (transpose S1024x1024 [1, 0]
          (pad S1024x1024 ![0, 0] ![24, 0] ![0, 0] (aP m c)
            (sitofp (F := Ideal) .f32 (constantI S_ 32 0#32)) pads_S1000x1024_S1024x1024_0240_000 h_S_)
          transposes_S1024x1024_S1024x1024_1_0) bitsLt_bf16_f32) := by
  dsimp only [V]
  simp only [hostOps0, hostOps0_1, hostOps0_2, List.flatten_cons, List.flatten_nil, List.append_nil, List.cons_append,
    List.nil_append]
  after_results
  all_goals rfl

theorem V_v7 (c : Dev nD) :
    @Eq (S1x1024.Idx → EReal) (V m c main_v7)
      (broadcastInDim S1x1024 ![1] bcast_S1024_S1x1024_1
          (Host.reduceAdd (F := Ideal)
            (mulf
              (pad S1024x1024 ![0, 0] ![24, 0] ![0, 0] (aP m c)
                (sitofp (F := Ideal) .f32 (constantI S_ 32 0#32)) pads_S1000x1024_S1024x1024_0240_000 h_S_)
              (pad S1024x1024 ![0, 0] ![24, 0] ![0, 0] (aP m c)
                (sitofp (F := Ideal) .f32 (constantI S_ 32 0#32)) pads_S1000x1024_S1024x1024_0240_000 h_S_))
            (constant (F := Ideal) S_ .f32 0x00000000#32) reducesTo_S1024x1024_S1024_d1 h_S_)) := by
  dsimp only [V]
  simp only [hostOps0, hostOps0_1, hostOps0_2, List.flatten_cons, List.flatten_nil, List.append_nil, List.cons_append,
    List.nil_append]
  after_results
  all_goals rfl

/-! ## The same, read at an entry -/

/-- The weights as the grid finds them are the weights. -/
theorem V_v0_apply (c : Dev nD) (j : Fin 2048) (k : Fin 1024) :
    @Eq EReal (V m c main_v0 (ix2 j k)) (aW m c (ix2 j k)) := by
  rw [V_v0]; rfl

/-- The bias as one row. -/
theorem V_v4_apply (c : Dev nD) (k : Fin 1024) :
    @Eq EReal (V m c main_v4 (ix2 (0 : Fin 1) k)) (aB m c (ix1 k)) := by
  rw [V_v4]
  exact broadcastInDim_apply _ bcast_S1024_S1x1024_1 _ (ix2 (0 : Fin 1) k) (ix1 k) (fun a => match a with
    | ⟨0, _⟩ => by show k.val = if (1024 : Nat) = 1 then 0 else k.val; rw [if_neg (by decide)])

/-- The padded, transposed prototypes at `(k, q)`, `q < 1000`: the prototype `q`'s coordinate `k`. -/
theorem V_v3_apply (c : Dev nD) (k : Fin 1024) (q : Fin 1000) :
    @Eq EReal (V m c main_v3 (ix2 k (widen q))) (aP m c (ix2 q k)) := by
  rw [V_v3]
  show transpose S1024x1024 [1, 0] (padded (aP m c)) transposes_S1024x1024_S1024x1024_1_0
      (ix2 k (widen q)) = _
  rw [transpose_ix2_apply, padded_apply]

/-- The squared norms' row at `(0, q)`, `q < 1000`: the float zero plus the sum of prototype `q`'s squared coordinates. -/
theorem V_v7_apply (c : Dev nD) (q : Fin 1000) :
    @Eq EReal (V m c main_v7 (ix2 (0 : Fin 1) (widen q))) (∑ k : Fin 1024, aP m c (ix2 q k) * aP m c (ix2 q k)) := by
  rw [V_v7]
  refine (broadcastInDim_apply _ bcast_S1024_S1x1024_1 _ (ix2 (0 : Fin 1) (widen q)) (ix1 (widen q)) (fun a => match a with
    | ⟨0, _⟩ => by show q.val = if (1024 : Nat) = 1 then 0 else q.val; rw [if_neg (by decide)])).trans ?_
  show Host.reduceAdd (F := Ideal) (mulf (padded (aP m c)) (padded (aP m c)))
      (constant (F := Ideal) S_ .f32 0x00000000#32) reducesTo_S1024x1024_S1024_d1 h_S_ (ix1 (widen q)) = _
  have hR : S1024x1024.Reduces [1] S1024 := by decide
  simp only [Host.reduceAdd, Ideal.hostReduceAdd_def]
  rw [Ideal.hostReduceAdd_single reducesTo_S1024x1024_S1024_d1 hR]
  show (Ideal.ofBits .f32 0x00000000#32 : EReal)
      + ∑ k : Fin 1024, (mulf (padded (aP m c)) (padded (aP m c))) (hR.lift (ix1 (widen q)) k) = _
  rw [Ideal.ofBits_zero_f32, zero_add]
  refine Finset.sum_congr rfl fun k _ => ?_
  have e : hR.lift (ix1 (widen q)) k = ix2 (widen q) k :=
    funext fun a => Fin.ext (by match a with | ⟨0, _⟩ => rfl | ⟨1, _⟩ => rfl)
  rw [e, mulf_apply, padded_apply]

end Cert.KernelIdeal.HostSide

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Body.lean ====
/-
  What the kernel body stores, read at one entry of its 512 × 1000 output block.

  The body is handed a block `x0` of 512 batch rows, the weights `x1`, the bias row `x2`, the padded transposed
  prototypes `x3` (1024 × 1024) and the row `x4` of their squared norms. It forms the block's features
      `Z(p, k) = Σ_j x0(p, j) · x1(j, k) + x2(0, k)`                      (a matrix product into zero, plus the bias row),
  each row's squared norm `Σ_k Z(p, k)²` kept as a column, the cross products `Σ_k Z(p, k) · x3(k, c)` (a second matrix
  product into zero), combines them as `((‖Z_p‖² + x4(0, c)) − 2 · cross(p, c)) · 2⁻¹⁰`, keeps the first 1000 of the 1024
  columns and subtracts the result from zero. Changing the float format of a matrix product's operands is the identity
  on the extended reals, so at entry `(p, q)`, `q < 1000`, the stored value is that expression with `c = q`.
-/
import proofs.«156472_j48490180772265_2_alg».proof.Proof.Gen.KernelIdeal.Skeleton
import proofs.«156472_j48490180772265_2_alg».proof.Proof.LibMatmulPlain
import proofs.«156472_j48490180772265_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix products are plain ones -/

theorem dot1_eq : dot_S512x2048_S2048x1024_S512x1024_1_0_0_1_n_n = DotDims.plain 512 2048 1024 := rfl
theorem dot2_eq : dot_S512x1024_S1024x1024_S512x1024_1_0_0_1_n_n = DotDims.plain 512 1024 1024 := rfl

variable (x0 : FVec Ideal S512x2048 .f32) (x1 : FVec Ideal S2048x1024 .bf16) (x2 : FVec Ideal S1x1024 .f32)
  (x3 : FVec Ideal S1024x1024 .bf16) (x4 : FVec Ideal S1x1024 .f32)

/-! ## One small lemma per operation that is not pointwise -/

/-- The first product at `(p, k)`: row `p` of the block against column `k` of the weights. -/
theorem mm1_apply (p : Fin 512) (k : Fin 1024) :
    matmul dot_S512x2048_S2048x1024_S512x1024_1_0_0_1_n_n none (truncf .bf16 x0 bitsLt_bf16_f32)
        (shapeCast S2048x1024 x1 shapeCasts_S2048x1024_S2048x1024) (constant S512x1024 .f32 0x00000000#32) (ix2 p k)
      = ∑ j : Fin 2048, x0 (ix2 p j) * x1 (ix2 j k) := by
  rw [shapeCast_self, dot1_eq]
  exact Cert.Lib.matmul_plain_zero_apply 512 2048 1024 none (truncf .bf16 x0 bitsLt_bf16_f32) x1 p k

/-- The second product at `(p, c)`: row `p` of a feature matrix `Z` against column `c` of `x3`. -/
theorem mm2_apply (Z : FVec Ideal S512x1024 .f32) (p : Fin 512) (c : Fin 1024) :
    matmul dot_S512x1024_S1024x1024_S512x1024_1_0_0_1_n_n none (truncf .bf16 Z bitsLt_bf16_f32)
        (shapeCast S1024x1024 x3 shapeCasts_S1024x1024_S1024x1024) (constant S512x1024 .f32 0x00000000#32) (ix2 p c)
      = ∑ k : Fin 1024, Z (ix2 p k) * x3 (ix2 k c) := by
  rw [shapeCast_self, dot2_eq]
  exact Cert.Lib.matmul_plain_zero_apply 512 1024 1024 none (truncf .bf16 Z bitsLt_bf16_f32) x3 p c

/-- A single row spread over the 512 rows reads, at `(p, k)`, the row at `k`. -/
theorem row_apply (y : FVec Ideal S1x1024 .f32) (p : Fin 512) (k : Fin 1024) :
    broadcastTo S512x1024 (shapeCast S1x1024 y shapeCasts_S1x1024_S1x1024) broadcasts_S1x1024_S512x1024 (ix2 p k)
      = y (ix2 (0 : Fin 1) k) := by
  rw [shapeCast_self]
  exact broadcastTo_1b_ab_apply y broadcasts_S1x1024_S512x1024 p k

/-- A vector of 512 row values kept as a column and spread over the 1024 columns reads, at `(p, k)`, the value of row `p`. -/
theorem col_apply (R : FVec Ideal S512 .f32) (p : Fin 512) (k : Fin 1024) :
    broadcastTo S512x1024 (shapeCast S512x1 R shapeCasts_S512_S512x1) broadcasts_S512x1_S512x1024 (ix2 p k)
      = R (ix1 p) :=
  (Cert.Lib.broadcastTo_a1_ab_apply _ broadcasts_S512x1_S512x1024 p k).trans
    (Cert.Lib.shapeCast_a_a1_apply R shapeCasts_S512_S512x1 p 0)

/-- The sum of a matrix's squared entries along each row, at row `p`. -/
theorem rowsq_apply (Z : FVec Ideal S512x1024 .f32) (p : Fin 512) :
    multiReduction .add [1] S512 (mulf Z Z) 0x00000000#32 reduces_S512x1024_S512 (.inl rfl) rfl (ix1 p)
      = ∑ k : Fin 1024, Z (ix2 p k) * Z (ix2 p k) := by
  refine (Ideal.multiReduction_add_single (mulf Z Z) 0x00000000#32 reduces_S512x1024_S512 (.inl rfl) rfl (ix1 p)).trans ?_
  refine Finset.sum_congr rfl fun k _ => ?_
  have e : reduces_S512x1024_S512.lift (ix1 p) k = ix2 p k :=
    funext fun a => Fin.ext (by match a with | ⟨0, _⟩ => rfl | ⟨1, _⟩ => rfl)
  rw [e]
  rfl

/-- Keeping the first 1000 of 1024 columns reads, at `(p, q)`, the matrix at column `q`. -/
theorem sliced_apply (Mx : FVec Ideal S512x1024 .f32) (p : Fin 512) (q : Fin 1000) (q' : Fin 1024) (hq : q'.val = q.val) :
    extractStridedSlice S512x1000 ![0, 0] Mx slices_S512x1024_o0_0_S512x1000 (ix2 p q) = Mx (ix2 p q') :=
  slice2_axis1_apply 0 Mx slices_S512x1024_o0_0_S512x1000 p q q' (by rw [hq, Nat.zero_add])

/-! ## The block's features -/

/-- Entry `(p, k)` of the block's features, written out. -/
def zrow (p : Fin 512) (k : Fin 1024) : EReal :=
  (∑ j : Fin 2048, x0 (ix2 p j) * x1 (ix2 j k)) + x2 (ix2 (0 : Fin 1) k)

/-- The block's feature matrix as the body forms it. -/
def zB : FVec Ideal S512x1024 .f32 :=
  addf
    (matmul dot_S512x2048_S2048x1024_S512x1024_1_0_0_1_n_n none (truncf .bf16 x0 bitsLt_bf16_f32)
      (shapeCast S2048x1024 x1 shapeCasts_S2048x1024_S2048x1024) (constant S512x1024 .f32 0x00000000#32))
    (broadcastTo S512x1024 (shapeCast S1x1024 x2 shapeCasts_S1x1024_S1x1024) broadcasts_S1x1024_S512x1024)

theorem zB_apply (p : Fin 512) (k : Fin 1024) : zB x0 x1 x2 (ix2 p k) = zrow x0 x1 x2 p k := by
  unfold zB zrow
  rw [addf_apply, mm1_apply, row_apply]

/-! ## The stored value -/

/-- The body's stored value, as its stages over the feature matrix. -/
theorem pay_eq :
    k0_pay1 x0 x1 x2 x3 x4
      = subf (broadcast S512x1000 (Scalar.ofBits .f32 0x00000000#32))
          (extractStridedSlice S512x1000 ![0, 0]
            (mulf
              (subf
                (addf
                  (broadcastTo S512x1024
                    (shapeCast S512x1
                      (multiReduction .add [1] S512 (mulf (zB x0 x1 x2) (zB x0 x1 x2)) 0x00000000#32 reduces_S512x1024_S512 (.inl rfl) rfl)
                      shapeCasts_S512_S512x1)
                    broadcasts_S512x1_S512x1024)
                  (broadcastTo S512x1024 (shapeCast S1x1024 x4 shapeCasts_S1x1024_S1x1024) broadcasts_S1x1024_S512x1024))
                (mulf (broadcast S512x1024 (Scalar.ofBits .f32 0x40000000#32))
                  (matmul dot_S512x1024_S1024x1024_S512x1024_1_0_0_1_n_n none (truncf .bf16 (zB x0 x1 x2) bitsLt_bf16_f32)
                    (shapeCast S1024x1024 x3 shapeCasts_S1024x1024_S1024x1024) (constant S512x1024 .f32 0x00000000#32))))
              (broadcast S512x1024 (Scalar.ofBits .f32 0x3A800000#32)))
            slices_S512x1024_o0_0_S512x1000) := rfl

/-- THE STORED VALUE AT `(p, q)`, `q < 1000` (`q'` is `q` as one of the 1024 columns). -/
theorem pay_apply (p : Fin 512) (q : Fin 1000) (q' : Fin 1024) (hq : q'.val = q.val) :
    k0_pay1 x0 x1 x2 x3 x4 (ix2 p q)
      = Ideal.ofBits .f32 0x00000000#32
        - (((∑ k : Fin 1024, zrow x0 x1 x2 p k * zrow x0 x1 x2 p k) + x4 (ix2 (0 : Fin 1) q'))
            - Ideal.ofBits .f32 0x40000000#32 * ∑ k : Fin 1024, zrow x0 x1 x2 p k * x3 (ix2 k q'))
          * Ideal.ofBits .f32 0x3A800000#32 := by
  rw [pay_eq, subf_apply, sliced_apply _ p q q' hq, mulf_apply, subf_apply, addf_apply, col_apply, row_apply, rowsq_apply,
    mulf_apply, mm2_apply]
  simp only [zB_apply]
  rfl

end Cert.KernelIdeal.Body

end
-- ==== Proof.KValue.lean ====
/-
  The kernel's result array is `Spec.negMse` of its arguments.

  The grid has 16 points; point `t` is handed rows `512·t … 512·t + 511` of the batch and the four resident operands
  whole, and writes back rows `512·t … 512·t + 511` of the result (all 1000 columns). At entry `(p, q)` of its block the
  body's stored value is the expression of `Body.pay_apply` over the blocks; reading each block through its window turns
  the block's features into the features of batch row `r = 512·t + p`, the squared-norm row into prototype `q`'s squared
  norm and the transposed prototypes into prototype `q`'s coordinates, so the value stored is `0 − d(r, q) · 2⁻¹⁰`, which
  is `Spec.negMse` at `(r, q)` (`Spec.scaled_neg`). The 16 row blocks cover the result array: row `r` lies in block `r / 512`.
-/
import proofs.«156472_j48490180772265_2_alg».proof.Proof.Gen.KernelIdeal.Value
import proofs.«156472_j48490180772265_2_alg».proof.Proof.Spec
import proofs.«156472_j48490180772265_2_alg».proof.Proof.HostSide
import proofs.«156472_j48490180772265_2_alg».proof.Proof.Body

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.HostSide (aX aW aB aP widen)

variable (m : (ℓ : Loc nD τ sig) → Buf (Elt Ideal) ℓ) (ρ : Dev nD → PrngReg)

theorem hz : (![0, 0] : Fin 2 → Nat) = fun _ => 0 := funext fun a => by fin_cases a <;> rfl

/-- The windows' block indices at each of the 16 grid points: the batch block and the result block are block `t` of
    their arrays' rows, every other operand is its one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read through its window -/

/-- Row `p` of the batch block at point `t` is batch row `512·t + p`. -/
theorem iblk0_apply (c : Dev nD) (t : Fin cfg0.N) (p : Fin 512) (r : Fin 8192) (hr : r.val = t.val * 512 + p.val) (j : Fin 2048) :
    @Eq EReal (iblk m c 0 t (ix2 p j)) (aX m c (ix2 r j)) := by
  obtain ⟨e0, e1, -⟩ := idx_facts t
  have e : ((cfg0.win 0).blk t).view.emb (ix2 p j) = ix2 r j := funext fun a => Fin.ext (by
    match a with
    | ⟨0, _⟩ => show win0_0.index t (0 : Fin 2) * 512 + 1 * p.val = r.val; omega
    | ⟨1, _⟩ => show win0_0.index t (1 : Fin 2) * 2048 + 1 * j.val = j.val; omega)
  show V m c main_arg0 (((cfg0.win 0).blk t).view.emb (ix2 p j)) = _
  rw [e, V_main_arg0]

/-- The weights' block is the weights. -/
theorem iblk1_apply (c : Dev nD) (t : Fin cfg0.N) (j : Fin 2048) (k : Fin 1024) :
    @Eq EReal (iblk m c 1 t (ix2 j k)) (aW m c (ix2 j k)) := by
  obtain ⟨-, -, e0, e1, -⟩ := idx_facts t
  have e : ((cfg0.win 1).blk t).view.emb (ix2 j k) = ix2 j k := funext fun a => Fin.ext (by
    match a with
    | ⟨0, _⟩ => show win0_1.index t (0 : Fin 2) * 2048 + 1 * j.val = j.val; omega
    | ⟨1, _⟩ => show win0_1.index t (1 : Fin 2) * 1024 + 1 * k.val = k.val; omega)
  show V m c main_v0 (((cfg0.win 1).blk t).view.emb (ix2 j k)) = _
  rw [e]
  exact HostSide.V_v0_apply m c j k

/-- The bias row's block is the bias. -/
theorem iblk2_apply (c : Dev nD) (t : Fin cfg0.N) (k : Fin 1024) :
    @Eq EReal (iblk m c 2 t (ix2 (0 : Fin 1) k)) (aB m c (ix1 k)) := by
  obtain ⟨-, -, -, -, e0, e1, -⟩ := idx_facts t
  have e : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 1024 + 1 * k.val = k.val; omega)
  show V m c main_v4 (((cfg0.win 2).blk t).view.emb (ix2 (0 : Fin 1) k)) = _
  rw [e]
  exact HostSide.V_v4_apply m c k

/-- The transposed prototypes' block at `(k, q)`, `q < 1000`, is coordinate `k` of prototype `q`. -/
theorem iblk3_apply (c : Dev nD) (t : Fin cfg0.N) (k : Fin 1024) (q : Fin 1000) :
    @Eq EReal (iblk m c 3 t (ix2 k (widen q))) (aP m c (ix2 q k)) := by
  obtain ⟨-, -, -, -, -, -, e0, e1, -⟩ := idx_facts t
  have e : ((cfg0.win 3).blk t).view.emb (ix2 k (widen q)) = ix2 k (widen q) := funext fun a => Fin.ext (by
    match a with
    | ⟨0, _⟩ => show win0_3.index t (0 : Fin 2) * 1024 + 1 * k.val = k.val; omega
    | ⟨1, _⟩ => show win0_3.index t (1 : Fin 2) * 1024 + 1 * q.val = q.val; omega)
  show V m c main_v3 (((cfg0.win 3).blk t).view.emb (ix2 k (widen q))) = _
  rw [e]
  exact HostSide.V_v3_apply m c k q

/-- The squared norms' block at `(0, q)`, `q < 1000`, is prototype `q`'s squared norm. -/
theorem iblk4_apply (c : Dev nD) (t : Fin cfg0.N) (q : Fin 1000) :
    @Eq EReal (iblk m c 4 t (ix2 (0 : Fin 1) (widen q))) (∑ k : Fin 1024, aP m c (ix2 q k) * aP m c (ix2 q k)) := by
  obtain ⟨-, -, -, -, -, -, -, -, e0, e1, -⟩ := idx_facts t
  have e : ((cfg0.win 4).blk t).view.emb (ix2 (0 : Fin 1) (widen q)) = ix2 (0 : Fin 1) (widen q) := funext fun a => Fin.ext (by
    match a with
    | ⟨0, _⟩ => show win0_4.index t (0 : Fin 2) * 1 + 1 * 0 = 0; omega
    | ⟨1, _⟩ => show win0_4.index t (1 : Fin 2) * 1024 + 1 * q.val = q.val; omega)
  show V m c main_v7 (((cfg0.win 4).blk t).view.emb (ix2 (0 : Fin 1) (widen q))) = _
  rw [e]
  exact HostSide.V_v7_apply m c q

/-- So the block's features at `(p, k)` are the features of batch row `512·t + p`. -/
theorem zrow_eq (c : Dev nD) (t : Fin cfg0.N) (p : Fin 512) (r : Fin 8192) (hr : r.val = t.val * 512 + p.val) (k : Fin 1024) :
    Body.zrow (iblk m c 0 t) (iblk m c 1 t) (iblk m c 2 t) p k = Spec.feat (aX m c) (aW m c) (aB m c) r k := by
  unfold Body.zrow Spec.feat
  simp only [iblk0_apply m c t p r hr, iblk1_apply, iblk2_apply]

/-! ## What a point writes back -/

/-- POINT `t` WRITES BACK block `t` of `Spec.negMse` of the argument arrays. -/
theorem flushed_eq (c : Dev nD) (t : Fin cfg0.N) :
    (dats m 0 c).flushed 5 t
      = ((cfg0.win 5).blk t).view.read (Elt Ideal) (Spec.negMse (aX m c) (aW m c) (aB m c) (aP m c)) := by
  rw [Value.flushed5]
  unfold out0_5
  rw [View.canon_unit_zero hz]
  simp only [View.ld_unit_zero (S := S512x2048) hz, View.ld_unit_zero (S := S2048x1024) hz, View.ld_unit_zero (S := S1x1024) hz,
    View.ld_unit_zero (S := S1024x1024) hz]
  funext (y : S512x1000.Idx)
  obtain ⟨p, q, rfl⟩ : ∃ (p : Fin 512) (q : Fin 1000), y = ix2 p q := ⟨y 0, y 1, eq_ix2 y⟩
  have hN : cfg0.N = 16 := N_0
  have ht : t.val < 16 := hN ▸ t.isLt
  obtain ⟨-, -, -, -, -, -, -, -, -, -, e0, e1⟩ := idx_facts t
  have e : ((cfg0.win 5).blk t).view.emb (ix2 p q) = ix2 (⟨t.val * 512 + p.val, by omega⟩ : Fin 8192) q :=
    funext fun a => Fin.ext (by
      match a with
      | ⟨0, _⟩ => show win0_5.index t (0 : Fin 2) * 512 + 1 * p.val = t.val * 512 + p.val; omega
      | ⟨1, _⟩ => show win0_5.index t (1 : Fin 2) * 1000 + 1 * q.val = q.val; omega)
  show k0_pay1 (iblk m c 0 t) (iblk m c 1 t) (iblk m c 2 t) (iblk m c 3 t) (iblk m c 4 t) (ix2 p q)
      = Spec.negMse (aX m c) (aW m c) (aB m c) (aP m c) (((cfg0.win 5).blk t).view.emb (ix2 p q))
  rw [e, Spec.negMse_apply, ← Spec.scaled_neg,
    Body.pay_apply (iblk m c 0 t) (iblk m c 1 t) (iblk m c 2 t) (iblk m c 3 t) (iblk m c 4 t) p q (widen q) rfl]
  unfold Spec.dist
  simp only [zrow_eq m c t p ⟨t.val * 512 + p.val, by omega⟩ rfl, iblk3_apply, iblk4_apply]

/-! ## The blocks cover the array -/

/-- An index of the result array is in point `t`'s block iff each coordinate is in the block's range on its axis. -/
theorem mem_blk (t : Fin cfg0.N) (i : S8192x1000.Idx) :
    i ∈ ((cfg0.win 5).blk t).view.set ↔ ∀ a : Fin 2, win0_5.index t a * S512x1000.size a ≤ (i a).val
      ∧ (i a).val < win0_5.index t a * S512x1000.size a + S512x1000.size a := by
  show i ∈ ((View.whole main_v8).slice (win0_5.rect t)).set ↔ _
  rw [View.set_slice_whole, Rect.mem_set_unit]
  exact Iff.rfl

/-- Row `r` of the result array lies in the block of point `r / 512`. -/
theorem cover (i : S8192x1000.Idx) :
    ∃ t : Fin cfg0.N, (cfg0.win 5).flush t = true ∧ i ∈ ((cfg0.win 5).blk t).view.set := by
  have hi0 : (i 0).val < 8192 := (i 0).isLt
  have hi1 : (i 1).val < 1000 := (i 1).isLt
  have hN : cfg0.N = 16 := N_0
  refine ⟨⟨(i 0).val / 512, by rw [hN]; omega⟩, flush0_5 _, ?_⟩
  rw [mem_blk]
  obtain ⟨-, -, -, -, -, -, -, -, -, -, e0, e1⟩ := idx_facts ⟨(i 0).val / 512, by rw [hN]; omega⟩
  intro a
  match a with
  | ⟨0, _⟩ =>
    show win0_5.index ⟨(i 0).val / 512, _⟩ (0 : Fin 2) * 512 ≤ (i 0).val
      ∧ (i 0).val < win0_5.index ⟨(i 0).val / 512, _⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, _⟩ (1 : Fin 2) * 1000 ≤ (i 1).val
      ∧ (i 1).val < win0_5.index ⟨(i 0).val / 512, _⟩ (1 : Fin 2) * 1000 + 1000
    rw [e1]
    omega

/-! ## The array after the run, and the run -/

/-- The result array after the run is `Spec.negMse` of the argument arrays. -/
theorem final (c : Dev nD) :
    (dats m 0 c).arrAt 5 cfg0.N = Spec.negMse (aX m c) (aW m c) (aB m c) (aP m c) :=
  (dats m 0 c).arrAt_eq_of_cover 5 (Spec.negMse (aX m c) (aW m c) (aB m c) (aP m c)) (fun t _ => flushed_eq m c t) cover

/-- Every weakly fair execution of the kernel's program terminates with the result array at `Spec.negMse` of the
    arguments and the arguments unchanged. -/
theorem run : θ_run defs (onTc (τ := τ) (main (F := Ideal))) ⟨m, fun _ => 0, ρ⟩ fun r => ∀ c : Dev nD,
      r.2.mem ((c : Thread nD τ).loc main_v8) = Spec.negMse (aX m c) (aW m c) (aB m c) (aP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefSide.lean ====
/-
  The reference computes `Spec.negMse`.

  Its stages, read one at a time at an entry `(r, q)`: the encoder features `Z = x · W + b` (a contraction over the 2048
  input coordinates, the bias spread over the rows); each row's squared norm and each prototype's squared norm, both sums
  over the 1024 feature coordinates started from the float zero; the cross term `Σ_k Z(r, k) · P(q, k)`; then
  `((‖Z_r‖² + ‖P_q‖²) − 2 · cross) / 1024`, negated. Every index a stage asks of its operand is a pair of the entry's own
  coordinates and the summation variable, so each stage is one of `Spec`'s sums.
-/
import proofs.«156472_j48490180772265_2_alg».proof.Proof.Gen.ReferenceIdeal.Read
import proofs.«156472_j48490180772265_2_alg».proof.Proof.Spec

noncomputable section

open scoped BigOperators

namespace Cert.ReferenceIdeal.RefSide

open Cert.ReferenceIdeal Cert.ReferenceIdeal.Gen Cert.ReferenceIdeal.Read Idealize.ShloMosaic Idealize.ShloMosaic.ValueIdx

variable (x0 : FVec Ideal S8192x2048 .f32) (x1 : FVec Ideal S2048x1024 .f32) (x2 : FVec Ideal S1024 .f32)
  (x3 : FVec Ideal S1000x1024 .f32)

/-! ## The operand indices of each stage, at an entry given by its coordinates -/

theorem lidx0 (r : Fin 8192) (k : Fin 1024) (j : Fin 2048) : lidx_main_v0 (ix2 r k) j = ix2 r j :=
  funext fun a => Fin.ext (by match a with | ⟨0, _⟩ => rfl | ⟨1, _⟩ => rfl)
theorem ridx0 (r : Fin 8192) (k : Fin 1024) (j : Fin 2048) : ridx_main_v0 (ix2 r k) j = ix2 j k :=
  funext fun a => Fin.ext (by match a with | ⟨0, _⟩ => rfl | ⟨1, _⟩ => rfl)
theorem idx_bias (r : Fin 8192) (k : Fin 1024) : idx_main_v1 (idx_main_v2 (ix2 r k)) = ix1 k :=
  funext fun a => Fin.ext (by match a with | ⟨0, _⟩ => rfl)
theorem idx_rowsq (r : Fin 8192) (q : Fin 1000) (k : Fin 1024) :
    idx_main_v5 (idx_main_v6 (idx_main_v11 (ix2 r q))) k = ix2 r k :=
  funext fun a => Fin.ext (by match a with | ⟨0, _⟩ => rfl | ⟨1, _⟩ => rfl)
theorem idx_protosq (r : Fin 8192) (q : Fin 1000) (k : Fin 1024) :
    idx_main_v8 (idx_main_v9 (idx_main_v12 (ix2 r q))) k = ix2 q k :=
  funext fun a => Fin.ext (by match a with | ⟨0, _⟩ => rfl | ⟨1, _⟩ => rfl)
theorem lidx10 (r : Fin 8192) (q : Fin 1000) (k : Fin 1024) : lidx_main_v10 (ix2 r q) k = ix2 r k :=
  funext fun a => Fin.ext (by match a with | ⟨0, _⟩ => rfl | ⟨1, _⟩ => rfl)
theorem ridx10 (r : Fin 8192) (q : Fin 1000) (k : Fin 1024) : ridx_main_v10 (ix2 r q) k = ix2 q k :=
  funext fun a => Fin.ext (by match a with | ⟨0, _⟩ => rfl | ⟨1, _⟩ => rfl)

/-! ## The stages -/

/-- The encoder features at `(r, k)`. -/
theorem ref_feat (r : Fin 8192) (k : Fin 1024) :
    val_main_v3 (F := Ideal) x0 x1 x2 (ix2 r k) = Spec.feat x0 x1 x2 r k := by
  rw [val_main_v3_apply, val_main_v0_apply, val_main_v2_apply, val_main_v1_apply, idx_bias]
  simp only [lidx0, ridx0]
  rfl

/-- The squared norm of feature row `r`, spread over the columns. -/
theorem ref_featSq (r : Fin 8192) (q : Fin 1000) :
    val_main_v11 (F := Ideal) x0 x1 x2 (ix2 r q)
      = ∑ k : Fin 1024, Spec.feat x0 x1 x2 r k * Spec.feat x0 x1 x2 r k := by
  rw [val_main_v11_apply, val_main_v6_apply, val_main_v5_apply, val_main_cst_apply]
  simp only [idx_rowsq, val_main_v4_apply, ref_feat, Ideal.ofBits_def, Ideal.ofBits_zero_f32, zero_add, Ideal.mulf_def]

/-- The squared norm of prototype `q`, spread over the rows. -/
theorem ref_protoSq (r : Fin 8192) (q : Fin 1000) :
    val_main_v12 (F := Ideal) x3 (ix2 r q) = ∑ k : Fin 1024, x3 (ix2 q k) * x3 (ix2 q k) := by
  rw [val_main_v12_apply, val_main_v9_apply, val_main_v8_apply, val_main_cst_0_apply]
  simp only [idx_protosq, val_main_v7_apply, Ideal.ofBits_def, Ideal.ofBits_zero_f32, zero_add, Ideal.mulf_def]

/-- The cross term of feature row `r` and prototype `q`. -/
theorem ref_cross (r : Fin 8192) (q : Fin 1000) :
    val_main_v10 (F := Ideal) x0 x1 x2 x3 (ix2 r q) = ∑ k : Fin 1024, Spec.feat x0 x1 x2 r k * x3 (ix2 q k) := by
  rw [val_main_v10_apply]
  simp only [lidx10, ridx10, ref_feat]

/-- THE REFERENCE'S RESULT is `Spec.negMse` of its arguments. -/
theorem ref_eq : val_main_v19 (F := Ideal) x0 x1 x2 x3 = Spec.negMse x0 x1 x2 x3 := by
  funext i
  obtain ⟨r, q, rfl⟩ : ∃ (r : Fin 8192) (q : Fin 1000), i = ix2 r q := ⟨i 0, i 1, eq_ix2 i⟩
  rw [Spec.negMse_apply, val_main_v19_apply, val_main_v18_apply, val_main_v16_apply, val_main_v13_apply, val_main_v15_apply,
    val_main_v14_apply, val_main_v17_apply, val_main_cst_1_apply, val_main_cst_2_apply, ref_featSq, ref_protoSq, ref_cross]
  rfl

end Cert.ReferenceIdeal.RefSide

end
-- ==== Proof.lean ====
/-
  The five claims of this certificate.

  Both programs take a batch `x` (8192 × 2048), weights `W` (2048 × 1024), a bias `b` (1024) and prototypes `P`
  (1000 × 1024), and return, at `(r, q)`, the negated mean squared difference between row `r` of the features
  `Z = x · W + b` and prototype `q`, taken by the expansion `‖z − p‖² = (‖z‖² + ‖p‖²) − 2 z·p`:
      `out(r, q) = −(((Σ_k Z(r, k)² + Σ_k P(q, k)²) − 2 · Σ_k Z(r, k) · P(q, k)) / 1024)`           (`Spec.negMse`).
  The kernel works on 16 blocks of 512 batch rows. Beforehand it pads the prototypes to 1024 rows, transposes them and
  takes their squared row norms; in the body it forms the block's features, their squared row norms and their
  products with the transposed prototypes, scales by the float `2⁻¹⁰` instead of dividing by `1024`, keeps the first 1000
  columns (so no padding row is ever read) and negates by subtracting from zero. On the extended reals the two
  spellings are one function: a change of float format is the identity, both matrix products and all row sums are the
  same finite sums in the same order, division by the real `1024` is multiplication by `1/1024 = 2⁻¹⁰` at the infinities too,
  and `0 − y = −y`. No step needs the inputs to be finite.

  * The three frames: the kernel's two are the generated frame proofs; the reference's is its run with the result dropped.
  * The kernel's idealization rewrote nothing, so that claim is `True`.
  * Equal results: the kernel's result array is `Spec.negMse` of its arguments (`KValue.run`), the reference's result is
    `Spec.negMse` of its arguments (`RefSide.ref_eq` on its run), and the arguments agree.
-/
import proofs.«156472_j48490180772265_2_alg».proof.Defs
import proofs.«156472_j48490180772265_2_alg».proof.Proof.Gen.Kernel
import proofs.«156472_j48490180772265_2_alg».proof.Proof.Gen.Kernel.Skeleton
import proofs.«156472_j48490180772265_2_alg».proof.Proof.Gen.Kernel.Launch
import proofs.«156472_j48490180772265_2_alg».proof.Proof.Gen.Kernel.Points
import proofs.«156472_j48490180772265_2_alg».proof.Proof.Gen.Kernel.Frame
import proofs.«156472_j48490180772265_2_alg».proof.Proof.Gen.KernelIdeal
import proofs.«156472_j48490180772265_2_alg».proof.Proof.Gen.KernelIdeal.Skeleton
import proofs.«156472_j48490180772265_2_alg».proof.Proof.Gen.KernelIdeal.Launch
import proofs.«156472_j48490180772265_2_alg».proof.Proof.Gen.KernelIdeal.Points
import proofs.«156472_j48490180772265_2_alg».proof.Proof.Gen.KernelIdeal.Frame
import proofs.«156472_j48490180772265_2_alg».proof.Proof.Gen.ReferenceIdeal
import proofs.«156472_j48490180772265_2_alg».proof.Proof.Gen.Pre_finite_inputs
import proofs.«156472_j48490180772265_2_alg».proof.Proof.Gen.KernelIdeal.Value
import proofs.«156472_j48490180772265_2_alg».proof.Proof.Gen.ReferenceIdeal.Run
import proofs.«156472_j48490180772265_2_alg».proof.Proof.Gen.ReferenceIdeal.Read
import proofs.«156472_j48490180772265_2_alg».proof.Proof.Spec
import proofs.«156472_j48490180772265_2_alg».proof.Proof.KValue
import proofs.«156472_j48490180772265_2_alg».proof.Proof.RefSide
import Idealize.ShloMosaic.Adequacy
import Idealize.ShloMosaic.Init

noncomputable section

namespace Cert.Proof

open Idealize.ShloMosaic Idealize.ShloMosaic.TcCoe Idealize.SL.Sem
open Cert.KernelIdeal.HostSide (aX aW aB aP)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `Spec.negMse` of the arguments. -/
theorem algebraic : Cert.algebraic_KernelIdeal_ReferenceIdeal := by
  intro m ρ m' ρ' _ hagree
  refine ⟨fun c => Cert.Spec.negMse (aX m c) (aW m c) (aB m c) (aP m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefSide.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
